-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S50000x1024 : Shape := ⟨2, ![50000, 1024]⟩
abbrev S1024x256 : Shape := ⟨2, ![1024, 256]⟩
abbrev S256 : Shape := ⟨1, ![256]⟩
abbrev S256x256 : Shape := ⟨2, ![256, 256]⟩
abbrev S800000 : Shape := ⟨1, ![800000]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S256 .f32) (main_arg8 : FVec F S800000 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S800000 .f32 := Host.absf main_arg8
  let main_cst_14 : FVec F S_ .f32 := constant S_ .f32 0x7F800000#32
  let main_v40 : FVec F S800000 .f32 := broadcastInDim S800000 ![] bcast_S_S800000 main_cst_14
  let main_v41 : IVec S800000 1 := cmpf .olt main_v39 main_v40
  let main_c_15 : IVec S_ 1 := constantI S_ 1 1#1
  let main_v42 : IVec S_ 1 := (fun x v => Host.reduce IntOp.andi x v reducesTo_S800000_S_d0 h_S_) main_v41 main_c_15
  let main_v43 : IVec S_ 1 := andi main_v38 main_v42
  main_v43

def fn_part1 {F : FTy → Type} [FloatOps F] (main_arg4 : FVec F S256x256 .f32) (main_arg5 : FVec F S256 .f32) (main_arg6 : FVec F S256x256 .f32) (main_arg7 : FVec F S256 .f32) (main_arg8 : FVec F S800000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S2048x256 .f32) (main_arg1 : FVec F S50000x1024 .f32) (main_arg2 : FVec F S1024x256 .f32) (main_arg3 : FVec F S256 .f32) (main_arg4 : FVec F S256x256 .f32) (main_arg5 : FVec F S256 .f32) (main_arg6 : FVec F S256x256 .f32) (main_arg7 : FVec F S256 .f32) (main_arg8 : FVec F S800000 .f32) (main_arg9 : IVec S800000 32) (main_arg10 : IVec S800000 32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S2048x256 : Shape := ⟨2, ![2048, 256]⟩
abbrev S50000x1024 : Shape := ⟨2, ![50000, 1024]⟩
abbrev S1024x256 : Shape := ⟨2, ![1024, 256]⟩
abbrev S256 : Shape := ⟨1, ![256]⟩
abbrev S256x256 : Shape := ⟨2, ![256, 256]⟩
abbrev S800000 : Shape := ⟨1, ![800000]⟩
abbrev S1x256 : Shape := ⟨2, ![1, 256]⟩
abbrev S50000x256 : Shape := ⟨2, ![50000, 256]⟩
abbrev S1000x1024 : Shape := ⟨2, ![1000, 1024]⟩
abbrev S1000x256 : Shape := ⟨2, ![1000, 256]⟩
abbrev S800000x1 : Shape := ⟨2, ![800000, 1]⟩
abbrev S_ : Shape := ⟨0, ![]⟩
abbrev S800000x256 : Shape := ⟨2, ![800000, 256]⟩
abbrev S5000x256 : Shape := ⟨2, ![5000, 256]⟩
abbrev S50176x256 : Shape := ⟨2, ![50176, 256]⟩
abbrev S2048x50176 : Shape := ⟨2, ![2048, 50176]⟩
abbrev S896x256 : Shape := ⟨2, ![896, 256]⟩
abbrev S2048x896 : Shape := ⟨2, ![2048, 896]⟩
abbrev S2048x50000 : Shape := ⟨2, ![2048, 50000]⟩

abbrev nBuf : Space → Nat
  | .hbm => 60
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S50000x1024, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000, .f32⟩
  | .hbm, ⟨9, _⟩ => ⟨S800000, .i32⟩
  | .hbm, ⟨10, _⟩ => ⟨S800000, .i32⟩
  | .hbm, ⟨11, _⟩ => ⟨S1x256, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S800000x256, .f32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S_, .f32⟩
  | .hbm, ⟨57, _⟩ => ⟨S50176x256, .f32⟩
  | .hbm, ⟨58, _⟩ => ⟨S2048x50176, .f32⟩
  | .hbm, ⟨59, _⟩ => ⟨S2048x50000, .f32⟩
  | .local _ .vmem, ⟨0, _⟩ => ⟨S1000x1024, .f32⟩
  | .local _ .vmem, ⟨1, _⟩ => ⟨S1000x1024, .f32⟩
  | .local _ .vmem, ⟨2, _⟩ => ⟨S1024x256, .f32⟩
  | .local _ .vmem, ⟨3, _⟩ => ⟨S1x256, .f32⟩
  | .local _ .vmem, ⟨4, _⟩ => ⟨S256x256, .f32⟩
  | .local _ .vmem, ⟨5, _⟩ => ⟨S1000x256, .f32⟩
  | .local _ .vmem, ⟨6, _⟩ => ⟨S1000x256, .f32⟩
  | .local _ .vmem, ⟨7, _⟩ => ⟨S5000x256, .f32⟩
  | .local _ .vmem, ⟨8, _⟩ => ⟨S5000x256, .f32⟩
  | .local _ .vmem, ⟨9, _⟩ => ⟨S256x256, .f32⟩
  | .local _ .vmem, ⟨10, _⟩ => ⟨S5000x256, .f32⟩
  | .local _ .vmem, ⟨11, _⟩ => ⟨S5000x256, .f32⟩
  | .local _ .vmem, ⟨12, _⟩ => ⟨S2048x256, .f32⟩
  | .local _ .vmem, ⟨13, _⟩ => ⟨S896x256, .f32⟩
  | .local _ .vmem, ⟨14, _⟩ => ⟨S896x256, .f32⟩
  | .local _ .vmem, ⟨15, _⟩ => ⟨S2048x896, .f32⟩
  | .local _ .vmem, ⟨16, _⟩ => ⟨S2048x896, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![56], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S896x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x896 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256_S1x256 : S256.ShapeCasts S1x256
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  pads_S50000x256_S50176x256_01760_000 : S50000x256.Pads (![0, 0] : Fin 2 → Nat) ![176, 0] ![0, 0] S50176x256
  h_S_ : 0 < S_.numel
  inb_S2048x256_S2048x256_0_0 : ∀ a, (![0, 0] : Fin 2 → Nat) a + S2048x256.size a ≤ S2048x256.size a
  h_S2048x256 : 0 < S2048x256.numel
  inb_S896x256_S896x256_0_0 : ∀ a, (![0, 0] : Fin 2 → Nat) a + S896x256.size a ≤ S896x256.size a
  h_S896x256 : 0 < S896x256.numel
  shapeCasts_S896x256_S896x256 : S896x256.ShapeCasts S896x256
  inb_S2048x896_S2048x896_0_0 : ∀ a, (![0, 0] : Fin 2 → Nat) a + S2048x896.size a ≤ S2048x896.size a
  h_S2048x896 : 0 < S2048x896.numel
  slices_S2048x50176_S2048x50000_0_0 : S2048x50176.Slices ![0, 0] S2048x50000
  dot_S1000x1024_S1024x256_S1000x256_1_0_0_1_n_n_wf : DotDims.WF S1000x1024 S1024x256 S1000x256 [1] [0] [0] [1] [] []
  dot_S1000x256_S256x256_S1000x256_1_0_0_1_n_n_wf : DotDims.WF S1000x256 S256x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S2048x256_S896x256_S2048x896_1_1_0_0_n_n_wf : DotDims.WF S2048x256 S896x256 S2048x896 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .f32 = 32 ∨ (Rect.block (s := S2048x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S896x256.size a ≤ S50176x256.size a
  hwx2_1 : ∀ i : grid2.Coords, EltTy.bits .f32 = 32 ∨ (Rect.block (s := S50176x256) S896x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x896.size a ≤ S2048x50176.size a
  hwx2_2 : ∀ i : grid2.Coords, EltTy.bits .f32 = 32 ∨ (Rect.block (s := S2048x50176) S2048x896.size (cc2_transform_2 i) (hinb2_2 i)).WholeWords (EltTy.packing .f32)

variable [Facts₀]

def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S2048x256_S896x256_S2048x896_1_1_0_0_n_n : DotDims S2048x256 S896x256 S2048x896 where
  lhsContracting := [1]
  rhsContracting := [1]
  lhsNonContracting := [0]
  rhsNonContracting := [0]
  lhsBatch := []
  rhsBatch := []
  wf := dot_S2048x256_S896x256_S2048x896_1_1_0_0_n_n_wf

abbrev win0_0 : Pipeline.Window sig grid0 :=
  Pipeline.Window.ofSpec (Memref.whole main_arg1) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2048x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v36) S896x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2048x896.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x256 : Shape := ⟨2, ![2048, 256]⟩
abbrev S50000x1024 : Shape := ⟨2, ![50000, 1024]⟩
abbrev S1024x256 : Shape := ⟨2, ![1024, 256]⟩
abbrev S256 : Shape := ⟨1, ![256]⟩
abbrev S256x256 : Shape := ⟨2, ![256, 256]⟩
abbrev S800000 : Shape := ⟨1, ![800000]⟩
abbrev S50000x256 : Shape := ⟨2, ![50000, 256]⟩
abbrev S1x256 : Shape := ⟨2, ![1, 256]⟩
abbrev S800000x1 : Shape := ⟨2, ![800000, 1]⟩
abbrev S_ : Shape := ⟨0, ![]⟩
abbrev S800000x256 : Shape := ⟨2, ![800000, 256]⟩
abbrev S256x50000 : Shape := ⟨2, ![256, 50000]⟩
abbrev S2048x50000 : Shape := ⟨2, ![2048, 50000]⟩

abbrev nBuf : Space → Nat
  | .hbm => 68
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S50000x1024, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000, .f32⟩
  | .hbm, ⟨9, _⟩ => ⟨S800000, .i32⟩
  | .hbm, ⟨10, _⟩ => ⟨S800000, .i32⟩
  | .hbm, ⟨11, _⟩ => ⟨S50000x256, .f32⟩
  | .hbm, ⟨12, _⟩ => ⟨S1x256, .f32⟩
  | .hbm, ⟨13, _⟩ => ⟨S50000x256, .f32⟩
  | .hbm, ⟨14, _⟩ => ⟨S50000x256, .f32⟩
  | .hbm, ⟨15, _⟩ => ⟨S50000x256, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x256, .f32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S800000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x256, .f32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S256x50000, .f32⟩
  | .hbm, ⟨59, _⟩ => ⟨S2048x50000, .f32⟩
  | .hbm, ⟨60, _⟩ => ⟨S2048x50000, .f32⟩
  | .hbm, ⟨61, _⟩ => ⟨S2048x50000, .f32⟩
  | .hbm, ⟨62, _⟩ => ⟨S_, .f32⟩
  | .hbm, ⟨63, _⟩ => ⟨S2048x50000, .f32⟩
  | .hbm, ⟨64, _⟩ => ⟨S2048x50000, .f32⟩
  | .hbm, ⟨65, _⟩ => ⟨S_, .f32⟩
  | .hbm, ⟨66, _⟩ => ⟨S2048x50000, .f32⟩
  | .hbm, ⟨67, _⟩ => ⟨S2048x50000, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S50000x256_S256x50000_1_0 : S50000x256.Transposes [1, 0] S256x50000
  bcast_S_S2048x50000 : S_.BroadcastsInDim S2048x50000 (![] : Fin 0 → Fin S2048x50000.rank)
  dot_S50000x1024_S1024x256_S50000x256_1_0_0_1_n_n_wf : DotDims.WF S50000x1024 S1024x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2048x256_S256x50000_S2048x50000_1_0_0_1_n_n_wf : DotDims.WF S2048x256 S256x50000 S2048x50000 [1] [0] [0] [1] [] []

variable [Facts₀]

def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2048x256_S256x50000_S2048x50000_1_0_0_1_n_n : DotDims S2048x256 S256x50000 S2048x50000 where
  lhsContracting := [1]
  rhsContracting := [0]
  lhsNonContracting := [0]
  rhsNonContracting := [1]
  lhsBatch := []
  rhsBatch := []
  wf := dot_S2048x256_S256x50000_S2048x50000_1_0_0_1_n_n_wf

class Facts : Prop extends Facts₀ where

variable [Facts]
-- ==== Proof.RunNamed.lean ====
/-
  The idealized kernel's run with its result NAMED.

  @main is nine segments: a reshape of the first bias, the first dense stage on the TensorCore, the first sparse
  aggregation with its bias and ReLU on the host, the second dense stage, the second sparse aggregation with its bias and
  the zero padding of the node axis, the scoring stage, and the slice that drops the padded columns.  The buffer contents
  at each boundary are a fold from the launch memory (W0 … W9).  Every weakly fair execution terminates with every
  unscoped buffer at the last boundary's contents W9; so the result buffer ends at W9 read at the result, and the
  arguments end as launched.
-/
import proofs.«112449_j38104949850543_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunNamed

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMatProd.lean ====
/-
  The product of two matrices on the extended reals as ONE whole-array function, and two ways a program spells it.

  For an [m, K] matrix l and a [K, n] matrix r the product is the [m, n] matrix whose entry (p, q) is
  Σ_k l(p, k) · r(k, q).  The host's `dot_general` of the plain form (axis 1 of the left against axis 0 of the right,
  no batch axis) IS that matrix, and so is a kernel's `tpu.matmul` of the same form accumulated into the zero splat:
  both are the textbook sum at every entry, and a matrix is its entries.  No finiteness is used: nothing is
  re-associated or distributed.
-/
import proofs.«112449_j38104949850543_1_alg».proof.Proof.LibPlainMatmul

noncomputable section

namespace Cert.MatProd

open Idealize.ShloMosaic Idealize.ShloMosaic.ValueIdx

/-- The matrix product, entry by entry. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

/-- The product read at (p, q). -/
theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

/-- The host's plain `dot_general` is the matrix product, as a whole array, under any schedule key. -/
theorem dotGeneral_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) :
    FloatOps.dotGeneral (PlainMatmul.plain wf) prec sched l r = matProd l r := by
  funext i
  obtain ⟨p, q, rfl⟩ : ∃ (p : Fin m) (q : Fin n), i = ix2 p q := ⟨i 0, i 1, eq_ix2 i⟩
  exact PlainMatmul.dotGeneral_apply wf prec sched l r p q

/-- A kernel's plain `tpu.matmul` into the zero splat is the matrix product, as a whole block. -/
theorem matmul_zero_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) :
    FloatOps.matmul (PlainMatmul.plain wf) prec l r (constant (⟨2, ![m, n]⟩ : Shape) .f32 0x00000000#32) = matProd l r := by
  funext i
  obtain ⟨p, q, rfl⟩ : ∃ (p : Fin m) (q : Fin n), i = ix2 p q := ⟨i 0, i 1, eq_ix2 i⟩
  exact PlainMatmul.matmul_zero_apply wf prec l r p q

end Cert.MatProd

end
-- ==== Proof.LibMatProdT.lean ====
/-
  A matrix product against a TRANSPOSED right operand on the extended reals, read at an entry and as a whole array.

  A `tpu.matmul` (or the host's `dot_general`) of an [m, K] operand by an [n, K] operand — axis 1 of the left contracted
  with axis 1 of the right, no batch axis — is l · rᵀ: its entry (p, q) is  Σ_k l(p, k) · r(q, k).  The dimension record is
  taken in literal form (the six axis lists written out over any well-formedness witness), so a printed record of that form
  is an instance by unfolding its name.  The operands' formats are free: at the ideal values every format is the extended
  reals.  No finiteness is used: nothing is re-associated or distributed.
-/
import Idealize.ShloMosaic.PureOps.Ideal.Laws
import Idealize.ShloMosaic.Lib.ValueIdx

noncomputable section

namespace Cert.MatProdT

open Idealize.ShloMosaic Idealize.ShloMosaic.ValueIdx

/-- The literal record of an [m, K] × [n, K]ᵀ product. -/
abbrev transR {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (transR wf).contr.Idx)

/-- The left operand's row is the result's row. -/
theorem lhs_row : ((transR wf).lhsIdx j k 0).val = (j 0).val := by
  unfold DotDims.lhsIdx
  rw [dif_neg (show ¬(0 : Fin (⟨2, ![m, K]⟩ : Shape).rank) ∈ (transR wf).lhsBatch from List.not_mem_nil),
    dif_pos (show (0 : Fin (⟨2, ![m, K]⟩ : Shape).rank) ∈ (transR wf).lhsNonContracting from List.mem_singleton.mpr rfl)]
  rfl

/-- The left operand's column is the contracted coordinate. -/
theorem lhs_col : ((transR wf).lhsIdx j k 1).val = (k ⟨0, Nat.one_pos⟩).val :=
  (transR wf).lhsIdx_val_of_single rfl j k

/-- The right operand's row is the result's column. -/
theorem rhs_row : ((transR wf).rhsIdx j k 0).val = (j 1).val := by
  unfold DotDims.rhsIdx
  rw [dif_neg (show ¬(0 : Fin (⟨2, ![n, K]⟩ : Shape).rank) ∈ (transR wf).rhsBatch from List.not_mem_nil),
    dif_pos (show (0 : Fin (⟨2, ![n, K]⟩ : Shape).rank) ∈ (transR wf).rhsNonContracting from List.mem_singleton.mpr rfl)]
  rfl

/-- The right operand's column is the contracted coordinate. -/
theorem rhs_col : ((transR wf).rhsIdx j k 1).val = (k ⟨0, Nat.one_pos⟩).val :=
  (transR wf).rhsIdx_val_of_single rfl j k

end

/-- The sum over the record's contraction index, re-indexed by the contracted coordinate. -/
theorem contr_sum {m K n : ℕ}
    (wf : DotDims.WF (⟨2, ![m, K]⟩ : Shape) (⟨2, ![n, K]⟩ : Shape) (⟨2, ![m, n]⟩ : Shape) [1] [1] [0] [0] [] [])
    (l : (⟨2, ![m, K]⟩ : Shape).Idx → EReal) (r : (⟨2, ![n, K]⟩ : Shape).Idx → EReal) (p : Fin m) (q : Fin n) :
    (∑ k : (transR wf).contr.Idx, l ((transR wf).lhsIdx (ix2 p q) k) * r ((transR wf).rhsIdx (ix2 p q) k))
      = ∑ k : Fin K, l (ix2 p k) * r (ix2 q k) := by
  rw [← Equiv.sum_comp (contrEquiv1 (transR wf) K rfl rfl).symm]
  refine Finset.sum_congr rfl fun k _ => ?_
  have hk := contrEquiv1_symm_val (transR wf) K rfl rfl k
  have el : (transR wf).lhsIdx (ix2 p q) ((contrEquiv1 (transR wf) K rfl rfl).symm k) = ix2 p k :=
    funext fun a => Fin.ext (by
      match a with
      | ⟨0, _⟩ => exact lhs_row wf _ _
      | ⟨1, _⟩ => exact (lhs_col wf _ _).trans hk)
  have er : (transR wf).rhsIdx (ix2 p q) ((contrEquiv1 (transR wf) K rfl rfl).symm k) = ix2 q k :=
    funext fun a => Fin.ext (by
      match a with
      | ⟨0, _⟩ => exact rhs_row wf _ _
      | ⟨1, _⟩ => exact (rhs_col wf _ _).trans hk)
  rw [el, er]

/-- The product l · rᵀ, entry by entry. -/
def matProdT {m K n : ℕ} (l : (⟨2, ![m, K]⟩ : Shape).Idx → EReal) (r : (⟨2, ![n, K]⟩ : Shape).Idx → EReal) :
    (⟨2, ![m, n]⟩ : Shape).Idx → EReal :=
  fun i => ∑ k : Fin K, l (ix2 (i 0) k) * r (ix2 (i 1) k)

/-- The product read at (p, q). -/
theorem matProdT_apply {m K n : ℕ} (l : (⟨2, ![m, K]⟩ : Shape).Idx → EReal) (r : (⟨2, ![n, K]⟩ : Shape).Idx → EReal)
    (p : Fin m) (q : Fin n) : matProdT l r (ix2 p q) = ∑ k : Fin K, l (ix2 p k) * r (ix2 q k) := rfl

/-- A kernel's `tpu.matmul` of this form into the zero splat is l · rᵀ, as a whole block. -/
theorem matmul_zero_eq {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) :
    FloatOps.matmul (transR wf) prec l r (constant (⟨2, ![m, n]⟩ : Shape) .f32 0x00000000#32) = matProdT l r := by
  funext i
  obtain ⟨p, q, rfl⟩ : ∃ (p : Fin m) (q : Fin n), i = ix2 p q := ⟨i 0, i 1, eq_ix2 i⟩
  rw [Ideal.matmul_constant_zero_apply]
  exact contr_sum wf l r p q

/-- The host's `dot_general` of this form, under any schedule key, is l · rᵀ, as a whole array. -/
theorem dotGeneral_eq {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision) (sched : HostSchedule)
    (l : FVec Ideal (⟨2, ![m, K]⟩ : Shape) φ₁) (r : FVec Ideal (⟨2, ![n, K]⟩ : Shape) φ₂) :
    FloatOps.dotGeneral (transR wf) prec sched l r = matProdT l r := by
  funext i
  obtain ⟨p, q, rfl⟩ : ∃ (p : Fin m) (q : Fin n), i = ix2 p q := ⟨i 0, i 1, eq_ix2 i⟩
  rw [Ideal.dotGeneral_apply]
  exact contr_sum wf l r p q

end Cert.MatProdT

end
-- ==== Proof.Dense.lean ====
/-
  Entries of the dense stages, block against whole array.

  Each dense stage of the network is a matrix product (with a bias row added between two products in the first stage, and
  a logistic applied after the last).  An entry of such a stage needs only ONE row of the left operand (and, for a
  product against a transposed right operand, one row of the right operand).  So the stage computed on a block of rows
  is the block of the stage computed on the whole array: the statements below say this entry by entry, with the rows'
  agreement as hypotheses.  Nothing is re-associated or distributed: no finiteness is used.
-/
import proofs.«112449_j38104949850543_1_alg».proof.Proof.LibMatProd
import proofs.«112449_j38104949850543_1_alg».proof.Proof.LibMatProdT

noncomputable section

namespace Cert.Dense

open Idealize.ShloMosaic Idealize.ShloMosaic.ValueIdx Cert.MatProd Cert.MatProdT

/-- An entry of l · r from another pair of operands that agree with l on the entry's row and with r on its column. -/
theorem matProd_entry {m m' K n n' : ℕ}
    (l : (⟨2, ![m, K]⟩ : Shape).Idx → EReal) (r : (⟨2, ![K, n]⟩ : Shape).Idx → EReal)
    (l' : (⟨2, ![m', K]⟩ : Shape).Idx → EReal) (r' : (⟨2, ![K, n']⟩ : Shape).Idx → EReal)
    (i : (⟨2, ![m, n]⟩ : Shape).Idx) (j : (⟨2, ![m', n']⟩ : Shape).Idx)
    (hrow : ∀ k : Fin K, l' (ix2 (j 0) k) = l (ix2 (i 0) k))
    (hcol : ∀ k : Fin K, r' (ix2 k (j 1)) = r (ix2 k (i 1))) :
    matProd l' r' j = matProd l r i := by
  show (∑ k : Fin K, l' (ix2 (j 0) k) * r' (ix2 k (j 1))) = ∑ k : Fin K, l (ix2 (i 0) k) * r (ix2 k (i 1))
  exact Finset.sum_congr rfl fun k _ => by rw [hrow k, hcol k]

/-- An entry of l · rᵀ from another pair of operands that agree with l on the entry's row and with r on the row the
    entry's column names. -/
theorem matProdT_entry {m m' K n n' : ℕ}
    (l : (⟨2, ![m, K]⟩ : Shape).Idx → EReal) (r : (⟨2, ![n, K]⟩ : Shape).Idx → EReal)
    (l' : (⟨2, ![m', K]⟩ : Shape).Idx → EReal) (r' : (⟨2, ![n', K]⟩ : Shape).Idx → EReal)
    (i : (⟨2, ![m, n]⟩ : Shape).Idx) (j : (⟨2, ![m', n']⟩ : Shape).Idx)
    (hrow : ∀ k : Fin K, l' (ix2 (j 0) k) = l (ix2 (i 0) k))
    (hcol : ∀ k : Fin K, r' (ix2 (j 1) k) = r (ix2 (i 1) k)) :
    matProdT l' r' j = matProdT l r i := by
  show (∑ k : Fin K, l' (ix2 (j 0) k) * r' (ix2 (j 1) k)) = ∑ k : Fin K, l (ix2 (i 0) k) * r (ix2 (i 1) k)
  exact Finset.sum_congr rfl fun k _ => by rw [hrow k, hcol k]

/-- The first dense stage: (l · w + b) · w₁, the bias row b added to every row of l · w. -/
def fused {m K₁ K₂ n : ℕ} (l : (⟨2, ![m, K₁]⟩ : Shape).Idx → EReal) (w : (⟨2, ![K₁, K₂]⟩ : Shape).Idx → EReal)
    (b : (⟨2, ![1, K₂]⟩ : Shape).Idx → EReal) (w₁ : (⟨2, ![K₂, n]⟩ : Shape).Idx → EReal) :
    (⟨2, ![m, n]⟩ : Shape).Idx → EReal :=
  matProd (fun i => matProd l w i + b (ix2 0 (i 1))) w₁

/-- An entry of the first dense stage from a left operand that agrees with l on the entry's row. -/
theorem fused_entry {m m' K₁ K₂ n : ℕ}
    (l : (⟨2, ![m, K₁]⟩ : Shape).Idx → EReal) (l' : (⟨2, ![m', K₁]⟩ : Shape).Idx → EReal)
    (w : (⟨2, ![K₁, K₂]⟩ : Shape).Idx → EReal) (b : (⟨2, ![1, K₂]⟩ : Shape).Idx → EReal)
    (w₁ : (⟨2, ![K₂, n]⟩ : Shape).Idx → EReal)
    (i : (⟨2, ![m, n]⟩ : Shape).Idx) (j : (⟨2, ![m', n]⟩ : Shape).Idx)
    (hrow : ∀ k : Fin K₁, l' (ix2 (j 0) k) = l (ix2 (i 0) k)) (hcol : j 1 = i 1) :
    fused l' w b w₁ j = fused l w b w₁ i := by
  unfold fused
  refine matProd_entry _ w₁ _ w₁ i j (fun k => ?_) (fun k => by rw [hcol])
  show matProd l' w (ix2 (j 0) k) + b (ix2 0 k) = matProd l w (ix2 (i 0) k) + b (ix2 0 k)
  rw [matProd_entry l w l' w (ix2 (i 0) k) (ix2 (j 0) k) (fun k' => hrow k') (fun _ => rfl)]

/-- The last dense stage: the logistic of every entry of x · fᵀ. -/
def score {m K n : ℕ} (x : (⟨2, ![m, K]⟩ : Shape).Idx → EReal) (f : (⟨2, ![n, K]⟩ : Shape).Idx → EReal) :
    (⟨2, ![m, n]⟩ : Shape).Idx → EReal :=
  fun i => Ideal.logistic (matProdT x f i)

/-- An entry of the last dense stage from operands that agree with x on the entry's row and with f on the row the
    entry's column names. -/
theorem score_entry {m m' K n n' : ℕ}
    (x : (⟨2, ![m, K]⟩ : Shape).Idx → EReal) (f : (⟨2, ![n, K]⟩ : Shape).Idx → EReal)
    (x' : (⟨2, ![m', K]⟩ : Shape).Idx → EReal) (f' : (⟨2, ![n', K]⟩ : Shape).Idx → EReal)
    (i : (⟨2, ![m, n]⟩ : Shape).Idx) (j : (⟨2, ![m', n']⟩ : Shape).Idx)
    (hrow : ∀ k : Fin K, x' (ix2 (j 0) k) = x (ix2 (i 0) k))
    (hcol : ∀ k : Fin K, f' (ix2 (j 1) k) = f (ix2 (i 1) k)) :
    score x' f' j = score x f i :=
  congrArg Ideal.logistic (matProdT_entry x f x' f' i j hrow hcol)

end Cert.Dense

end
-- ==== Proof.Region0.lean ====
/-
  The first dense stage as one whole-array function: after the region the result array is (X · W + b) · W₁ of the four
  arrays the region finds — X the node features, W and W₁ the two weight matrices, b the bias as a one-row matrix.

  The grid has fifty points; point t stages rows 1000·t … 1000·t + 999 of X and all of W, b, W₁, computes
  (X_t · W + b) · W₁ on them, and writes it back as rows 1000·t … of the result.  A row of the stage needs only that row of
  X, so what point t writes is block t of the stage on the whole arrays; the fifty blocks tile the result array.
-/
import proofs.«112449_j38104949850543_1_alg».proof.Proof.Gen.KernelIdeal.Frame
import proofs.«112449_j38104949850543_1_alg».proof.Proof.Dense
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.MatProd Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's payload is the stage on its four loaded blocks: the format changes are the identity on the extended
    reals, the shape cast is to the same shape, both accumulators are the zero splat, and the broadcast of the one-row
    bias reads its row at every row. -/
theorem pay_eq (x0 : Vec Ideal S1000x1024 .f32) (x1 : Vec Ideal S1024x256 .f32) (x2 : Vec Ideal S1x256 .f32)
    (x3 : Vec Ideal S256x256 .f32) : k0_pay1 x0 x1 x2 x3 = fused x0 x1 x2 x3 := by
  unfold k0_pay1
  dsimp only
  rw [shapeCast_self]
  refine (MatProd.matmul_zero_eq (m := 1000) (K := 256) (n := 256) dot_S1000x256_S256x256_S1000x256_1_0_0_1_n_n_wf none _ _).trans ?_
  unfold fused
  refine congrArg (fun l => matProd (m := 1000) (K := 256) (n := 256) l x3) (funext fun i => ?_)
  obtain ⟨p, q, rfl⟩ : ∃ (p : Fin 1000) (q : Fin 256), i = ix2 p q := ⟨i 0, i 1, eq_ix2 i⟩
  rw [truncf_apply, addf_apply]
  refine congrArg₂ (· + ·) ?_ ?_
  · exact congrFun (MatProd.matmul_zero_eq (m := 1000) (K := 1024) (n := 256)
      dot_S1000x1024_S1024x256_S1000x256_1_0_0_1_n_n_wf none _ _) (ix2 p q)
  · exact broadcastTo_apply x2 _ (ix2 p q) (ix2 0 q) (fun a => by match a with | ⟨0, _⟩ => rfl | ⟨1, _⟩ => rfl)

/-- The printed index maps, decided over the fifty points: X's block moves with the result's down the rows, the
    other three operands are always whole. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 49 ∧ win0_4.index t (1 : Fin 2) = 0 :=
  (by decide +kernel : ∀ t : Fin grid0.N, _)

/-- Every block of rows is some point's. -/
theorem idx_onto : ∀ q : Fin 50, ∃ t : Fin cfg0.N, win0_4.index t = ![q.val, 0] :=
  (by decide +kernel : ∀ q : Fin 50, ∃ t : Fin grid0.N, win0_4.index t = ![q.val, 0])

/-- A whole-array window's block at any point is the array. -/
theorem whole1 (c : Dev nD) (t : Fin cfg0.N) : iblk0 V c 1 t = V c main_arg2 := by
  obtain ⟨e0, e1, e2, e3, e4, e5, e6, e7, e8, e9⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

theorem whole2 (c : Dev nD) (t : Fin cfg0.N) : iblk0 V c 2 t = V c main_v0 := by
  obtain ⟨e0, e1, e2, e3, e4, e5, e6, e7, e8, e9⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem whole3 (c : Dev nD) (t : Fin cfg0.N) : iblk0 V c 3 t = V c main_arg4 := by
  obtain ⟨e0, e1, e2, e3, e4, e5, e6, e7, e8, e9⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- What point t writes back is block t of the stage on the whole arrays. -/
theorem flushed_eq (c : Dev nD) (t : Fin cfg0.N) :
    (dat0 V c).flushed 4 t = ((cfg0.win 4).blk t).view.read (Elt Ideal)
      (fused (V c main_arg1) (V c main_arg2) (V c main_v0) (V c main_arg4)) := by
  show (cfg0.win 4).cut (grid0.coords t) ((dat0 V c).after 4 t) = _
  rw [after0_4]
  unfold out0_4
  rw [View.canon_unit_zero hz]
  simp only [View.ld_unit_zero (S := S1000x1024) hz, View.ld_unit_zero (S := S1024x256) hz,
    View.ld_unit_zero (S := S1x256) hz, View.ld_unit_zero (S := S256x256) hz]
  rw [pay_eq, whole1, whole2, whole3]
  obtain ⟨e0, e1, e2, e3, e4, e5, e6, e7, e8, e9⟩ := idx_facts t
  funext j
  show fused (iblk0 V c 0 t) (V c main_arg2) (V c main_v0) (V c main_arg4) j
    = fused (V c main_arg1) (V c main_arg2) (V c main_v0) (V c main_arg4) (((cfg0.win 4).blk t).view.emb j)
  refine fused_entry (V c main_arg1) (iblk0 V c 0 t) (V c main_arg2) (V c main_v0) (V c main_arg4)
    (((cfg0.win 4).blk t).view.emb j) j (fun k => ?_) ?_
  · show V c main_arg1 (((cfg0.win 0).blk t).view.emb (ix2 (j 0) k)) = V c main_arg1 (ix2 ((((cfg0.win 4).blk t).view.emb j) 0) k)
    refine congrArg (V c main_arg1) (funext fun a => Fin.ext ?_)
    match a with
    | ⟨0, _⟩ => show win0_0.index t (0 : Fin 2) * 1000 + 1 * (j 0).val = win0_4.index t (0 : Fin 2) * 1000 + 1 * (j 0).val; omega
    | ⟨1, _⟩ => show win0_0.index t (1 : Fin 2) * 1024 + 1 * k.val = k.val; omega
  · refine Fin.ext ?_
    show (j 1).val = win0_4.index t (1 : Fin 2) * 256 + 1 * (j 1).val
    omega

/-- An index of the result array is in point t's block iff each coordinate is in the block's range on its axis. -/
theorem mem_blk (t : Fin cfg0.N) (i : S50000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v1).slice (win0_4.rect t)).set ↔ _
  rw [View.set_slice_whole, Rect.mem_set_unit]
  exact Iff.rfl

/-- Every index of the result array is in some point's block: the point whose block holds row r is r / 1000. -/
theorem cover (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 256 ≤ (i 1).val ∧ (i 1).val < win0_4.index t (1 : Fin 2) * 256 + 256; omega

/-- The result array after the region: the stage on the four arrays the region finds. -/
theorem final (c : Dev nD) :
    (dat0 V c).arrAt 4 cfg0.N = fused (V c main_arg1) (V c main_arg2) (V c main_v0) (V c main_arg4) :=
  (dat0 V c).arrAt_eq_of_cover 4 (fused (V c main_arg1) (V c main_arg2) (V c main_v0) (V c main_arg4))
    (fun t _ => flushed_eq V c t) cover

end Cert.KernelIdeal.Region0

end
-- ==== Proof.Region1.lean ====
/-
  The second dense stage as one whole-array function: after the region the result array is the product f · W of the
  two arrays the region finds.

  The grid has ten points; point t stages rows 5000·t … 5000·t + 4999 of f and all of W, multiplies them, and writes
  the product back as rows 5000·t … of the result.  A row of f · W needs only that row of f, so what point t writes
  is block t of f · W; the ten blocks tile the result array.
-/
import proofs.«112449_j38104949850543_1_alg».proof.Proof.Gen.KernelIdeal.Frame
import proofs.«112449_j38104949850543_1_alg».proof.Proof.Dense
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.MatProd Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of its two loaded blocks: the format changes are the identity on the extended
    reals, the shape cast is to the same shape, and the accumulator is the zero splat. -/
theorem pay_eq (x0 : Vec Ideal S5000x256 .f32) (x1 : Vec Ideal S256x256 .f32) : k1_pay1 x0 x1 = matProd x0 x1 := by
  unfold k1_pay1
  dsimp only
  rw [shapeCast_self]
  exact MatProd.matmul_zero_eq (m := 5000) (K := 256) (n := 256) dot_S5000x256_S256x256_S5000x256_1_0_0_1_n_n_wf none _ _

/-- The printed index maps, decided over the ten points: the left operand's block moves with the result's down the
    rows, the right operand is always the whole matrix. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every block of rows is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point t writes back is block t of f · W. -/
theorem flushed_eq (c : Dev nD) (t : Fin cfg1.N) :
    (dat1 V c).flushed 2 t = ((cfg1.win 2).blk t).view.read (Elt Ideal) (matProd (V c main_v18) (V c main_arg6)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  rw [pay_eq]
  obtain ⟨e0, e1, e2, e3, e4, e5⟩ := idx_facts t
  funext j
  show matProd (iblk1 V c 0 t) (iblk1 V c 1 t) j = matProd (V c main_v18) (V c main_arg6) (((cfg1.win 2).blk t).view.emb j)
  refine matProd_entry (V c main_v18) (V c main_arg6) (iblk1 V c 0 t) (iblk1 V c 1 t) (((cfg1.win 2).blk t).view.emb j) j (fun k => ?_) (fun k => ?_)
  · show V c main_v18 (((cfg1.win 0).blk t).view.emb (ix2 (j 0) k)) = V c main_v18 (ix2 ((((cfg1.win 2).blk t).view.emb j) 0) k)
    refine congrArg (V c main_v18) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  · show V c main_arg6 (((cfg1.win 1).blk t).view.emb (ix2 k (j 1))) = V c main_arg6 (ix2 k ((((cfg1.win 2).blk t).view.emb j) 1))
    refine congrArg (V c main_arg6) (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the result array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v19).slice (win1_2.rect t)).set ↔ _
  rw [View.set_slice_whole, Rect.mem_set_unit]
  exact Iff.rfl

/-- Every index of the result array is in some point's block: the point whose block holds row r is r / 5000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The result array after the region: the product of the two arrays the region finds. -/
theorem final (c : Dev nD) : (dat1 V c).arrAt 2 cfg1.N = matProd (V c main_v18) (V c main_arg6) :=
  (dat1 V c).arrAt_eq_of_cover 2 (matProd (V c main_v18) (V c main_arg6)) (fun t _ => flushed_eq V c t) cover

end Cert.KernelIdeal.Region1

end
-- ==== Proof.Region2.lean ====
/-
  The scoring stage as one whole-array function: after the region the result array is the logistic of every entry of
  x · fᵀ, of the two arrays the region finds — x the queries, f the (padded) node embeddings.

  The grid has fifty-six points; point t stages all of x and rows 896·t … 896·t + 895 of f, computes the logistic of
  x · f_tᵀ, and writes it back as columns 896·t … of the result.  Entry (b, n) of the stage needs only row b of x and row
  n of f, so what point t writes is block t of the stage on the whole arrays; the fifty-six blocks tile the result array.
-/
import proofs.«112449_j38104949850543_1_alg».proof.Proof.Gen.KernelIdeal.Frame
import proofs.«112449_j38104949850543_1_alg».proof.Proof.Dense
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.MatProdT Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's payload is the stage on its two loaded blocks: the format changes are the identity on the extended
    reals, the shape cast is to the same shape, the accumulator is the zero splat, and the kernel's logistic is the
    logistic of the extended reals. -/
theorem pay_eq (x0 : Vec Ideal S2048x256 .f32) (x1 : Vec Ideal S896x256 .f32) : k2_pay1 x0 x1 = score x0 x1 := by
  unfold k2_pay1
  dsimp only
  rw [shapeCast_self]
  funext i
  show Ideal.logistic _ = Ideal.logistic _
  exact congrArg Ideal.logistic (congrFun (MatProdT.matmul_zero_eq (m := 2048) (K := 256) (n := 896)
    dot_S2048x256_S896x256_S2048x896_1_1_0_0_n_n_wf none _ _) i)

/-- The printed index maps, decided over the fifty-six points: f's block of rows moves with the result's block of
    columns, x is always whole. -/
theorem idx_facts : ∀ t : Fin cfg2.N,
    win2_0.index t (0 : Fin 2) = 0 ∧ win2_0.index t (1 : Fin 2) = 0
    ∧ win2_1.index t (0 : Fin 2) = win2_2.index t (1 : Fin 2) ∧ win2_1.index t (1 : Fin 2) = 0
    ∧ win2_2.index t (0 : Fin 2) = 0 ∧ win2_2.index t (1 : Fin 2) ≤ 55 :=
  (by decide +kernel : ∀ t : Fin grid2.N, _)

/-- Every block of columns is some point's. -/
theorem idx_onto : ∀ q : Fin 56, ∃ t : Fin cfg2.N, win2_2.index t = ![0, q.val] :=
  (by decide +kernel : ∀ q : Fin 56, ∃ t : Fin grid2.N, win2_2.index t = ![0, q.val])

/-- What point t writes back is block t of the stage on the whole arrays. -/
theorem flushed_eq (c : Dev nD) (t : Fin cfg2.N) :
    (dat2 V c).flushed 2 t = ((cfg2.win 2).blk t).view.read (Elt Ideal) (score (V c main_arg0) (V c main_v36)) := by
  show (cfg2.win 2).cut (grid2.coords t) ((dat2 V c).after 2 t) = _
  rw [after2_2]
  unfold out2_2
  rw [View.canon_unit_zero hz]
  simp only [View.ld_unit_zero (S := S2048x256) hz, View.ld_unit_zero (S := S896x256) hz]
  rw [pay_eq]
  obtain ⟨e0, e1, e2, e3, e4, e5⟩ := idx_facts t
  funext j
  show score (iblk2 V c 0 t) (iblk2 V c 1 t) j = score (V c main_arg0) (V c main_v36) (((cfg2.win 2).blk t).view.emb j)
  refine score_entry (V c main_arg0) (V c main_v36) (iblk2 V c 0 t) (iblk2 V c 1 t) (((cfg2.win 2).blk t).view.emb j) j
    (fun k => ?_) (fun k => ?_)
  · show V c main_arg0 (((cfg2.win 0).blk t).view.emb (ix2 (j 0) k)) = V c main_arg0 (ix2 ((((cfg2.win 2).blk t).view.emb j) 0) k)
    refine congrArg (V c main_arg0) (funext fun a => Fin.ext ?_)
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 256 + 1 * k.val = k.val; omega
  · show V c main_v36 (((cfg2.win 1).blk t).view.emb (ix2 (j 1) k)) = V c main_v36 (ix2 ((((cfg2.win 2).blk t).view.emb j) 1) k)
    refine congrArg (V c main_v36) (funext fun a => Fin.ext ?_)
    match a with
    | ⟨0, _⟩ => show win2_1.index t (0 : Fin 2) * 896 + 1 * (j 1).val = win2_2.index t (1 : Fin 2) * 896 + 1 * (j 1).val; omega
    | ⟨1, _⟩ => show win2_1.index t (1 : Fin 2) * 256 + 1 * k.val = k.val; omega

/-- An index of the result array is in point t's block iff each coordinate is in the block's range on its axis. -/
theorem mem_blk (t : Fin cfg2.N) (i : S2048x50176.Idx) :
    i ∈ ((cfg2.win 2).blk t).view.set ↔ ∀ a : Fin 2, win2_2.index t a * S2048x896.size a ≤ (i a).val ∧ (i a).val < win2_2.index t a * S2048x896.size a + S2048x896.size a := by
  show i ∈ ((View.whole main_v37).slice (win2_2.rect t)).set ↔ _
  rw [View.set_slice_whole, Rect.mem_set_unit]
  exact Iff.rfl

/-- Every index of the result array is in some point's block: the point whose block holds column n is n / 896. -/
theorem cover (i : S2048x50176.Idx) : ∃ t : Fin cfg2.N, (cfg2.win 2).flush t = true ∧ i ∈ ((cfg2.win 2).blk t).view.set := by
  have hi0 : (i 0).val < 2048 := (i 0).isLt
  have hi1 : (i 1).val < 50176 := (i 1).isLt
  obtain ⟨t, ht⟩ := idx_onto ⟨(i 1).val / 896, by omega⟩
  have q0 : win2_2.index t (0 : Fin 2) = 0 := congrFun ht 0
  have q1 : win2_2.index t (1 : Fin 2) = (i 1).val / 896 := congrFun ht 1
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 896 ≤ (i 1).val ∧ (i 1).val < win2_2.index t (1 : Fin 2) * 896 + 896; omega

/-- The result array after the region: the stage on the two arrays the region finds. -/
theorem final (c : Dev nD) : (dat2 V c).arrAt 2 cfg2.N = score (V c main_arg0) (V c main_v36) :=
  (dat2 V c).arrAt_eq_of_cover 2 (score (V c main_arg0) (V c main_v36)) (fun t _ => flushed_eq V c t) cover

end Cert.KernelIdeal.Region2

end
-- ==== Proof.Spec.lean ====
/-
  The network as ONE function of its eleven arguments, in stages.

  x queries [2048, 256]; X node features [50000, 1024]; W, b the composer's weights; W₁, b₁ and W₂, b₂ the two graph
  layers' weights; (val, row, col) the 800000 edges of the sparse adjacency A.

      h₁ = (X · W + b) · W₁                 dense stage 1
      f₁ = max(A · h₁ + b₁, 0)              sparse aggregation, bias, ReLU
      h₂ = f₁ · W₂                          dense stage 2
      f₂ = A · h₂ + b₂                      sparse aggregation, bias
      out = 1 / (1 + exp(-(x · f₂ᵀ)))       scoring

  The sparse aggregation A · h — gather the rows of h the edges' columns name (a negative column index wrapped by the
  node count), scale each by its edge's value, and add it into the row the edge's row index names — is written once,
  as a function of h, and never opened: both programs apply this same function, so only what goes INTO it is compared.
  The reference computes exactly these stages, operation for operation.
-/
import proofs.«112449_j38104949850543_1_alg».proof.Proof.Gen.ReferenceIdeal.Read

noncomputable section

namespace Cert.Spec

open Cert.ReferenceIdeal Cert.ReferenceIdeal.Gen Idealize.ShloMosaic

variable {F : FTy → Type} [FloatOps F]

/-- A bias vector added to every row: the [256] vector as a [1, 256] row, the row at every one of the 50000 rows. -/
def bias (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The [50000, 256] array of zeros. -/
def zeros : (⟨S50000x256, .f32⟩ : BufTy).Contents (Elt F) :=
  broadcastInDim S50000x256 ![] bcast_S_S50000x256 (constant S_ .f32 0x00000000#32)

/-- The edges' column indices as gather start indices: a negative index wrapped by the node count. -/
def cols (ec : (⟨S800000, .i32⟩ : BufTy).Contents (Elt F)) : (⟨S800000x1, .i32⟩ : BufTy).Contents (Elt F) :=
  broadcastInDim S800000x1 ![0] bcast_S800000_S800000x1_0
    (select (cmpi .slt ec (broadcastInDim S800000 ![] bcast_S_S800000 (constantI S_ 32 0#32)))
      (addi ec (broadcastInDim S800000 ![] bcast_S_S800000 (constantI S_ 32 50000#32))) ec)

/-- The sparse aggregation A · h of a dense [50000, 256] array h. -/
def spmm (ev : (⟨S800000, .f32⟩ : BufTy).Contents (Elt F)) (er ec : (⟨S800000, .i32⟩ : BufTy).Contents (Elt F))
    (h : (⟨S50000x256, .f32⟩ : BufTy).Contents (Elt F)) : (⟨S50000x256, .f32⟩ : BufTy).Contents (Elt F) :=
  Host.scatterAdd scatter_S50000x256_S800000x1_S800000x256_1_0_0_1 zeros
    (broadcastInDim S800000x1 ![0] bcast_S800000_S800000x1_0 er)
    (mulf (broadcastInDim S800000x256 ![0, 1] bcast_S800000x1_S800000x256_0_1 (broadcastInDim S800000x1 ![0] bcast_S800000_S800000x1_0 ev))
      (Host.gather gather_S50000x256_S800000x1_S800000x256_1_0_n_n_0_1_1256 h (cols ec)))

/-- The first graph layer after its dense stage: max(A · h + b₁, 0). -/
def layer1 (h : (⟨S50000x256, .f32⟩ : BufTy).Contents (Elt F)) (b1 : (⟨S256, .f32⟩ : BufTy).Contents (Elt F))
    (ev : (⟨S800000, .f32⟩ : BufTy).Contents (Elt F)) (er ec : (⟨S800000, .i32⟩ : BufTy).Contents (Elt F)) :
    (⟨S50000x256, .f32⟩ : BufTy).Contents (Elt F) :=
  maximumf (addf (spmm ev er ec h) (bias b1)) zeros

/-- The second graph layer after its dense stage: A · h + b₂. -/
def layer2 (h : (⟨S50000x256, .f32⟩ : BufTy).Contents (Elt F)) (b2 : (⟨S256, .f32⟩ : BufTy).Contents (Elt F))
    (ev : (⟨S800000, .f32⟩ : BufTy).Contents (Elt F)) (er ec : (⟨S800000, .i32⟩ : BufTy).Contents (Elt F)) :
    (⟨S50000x256, .f32⟩ : BufTy).Contents (Elt F) :=
  addf (spmm ev er ec h) (bias b2)

/-- Dense stage 1 as the reference spells it: (X · W + b) · W₁. -/
def dense1 (X : (⟨S50000x1024, .f32⟩ : BufTy).Contents (Elt F)) (W : (⟨S1024x256, .f32⟩ : BufTy).Contents (Elt F))
    (b : (⟨S256, .f32⟩ : BufTy).Contents (Elt F)) (W1 : (⟨S256x256, .f32⟩ : BufTy).Contents (Elt F)) :
    (⟨S50000x256, .f32⟩ : BufTy).Contents (Elt F) :=
  Host.dotGeneral dot_S50000x256_S256x256_S50000x256_1_0_0_1_n_n none
    (addf (Host.dotGeneral dot_S50000x1024_S1024x256_S50000x256_1_0_0_1_n_n none X W) (bias b)) W1

/-- Dense stage 2 as the reference spells it: f · W₂. -/
def dense2 (f : (⟨S50000x256, .f32⟩ : BufTy).Contents (Elt F)) (W2 : (⟨S256x256, .f32⟩ : BufTy).Contents (Elt F)) :
    (⟨S50000x256, .f32⟩ : BufTy).Contents (Elt F) :=
  Host.dotGeneral dot_S50000x256_S256x256_S50000x256_1_0_0_1_n_n none f W2

/-- The [2048, 50000] array of ones. -/
def ones : (⟨S2048x50000, .f32⟩ : BufTy).Contents (Elt F) :=
  broadcastInDim S2048x50000 ![] bcast_S_S2048x50000 (constant S_ .f32 0x3F800000#32)

/-- The scoring stage as the reference spells it: 1 / (1 + exp(-(x · fᵀ))). -/
def scoring (x : (⟨S2048x256, .f32⟩ : BufTy).Contents (Elt F)) (f : (⟨S50000x256, .f32⟩ : BufTy).Contents (Elt F)) :
    (⟨S2048x50000, .f32⟩ : BufTy).Contents (Elt F) :=
  Host.divf ones (addf ones (Host.exp (Host.negf (Host.dotGeneral dot_S2048x256_S256x50000_S2048x50000_1_0_0_1_n_n none x
    (transpose S256x50000 [1, 0] f transposes_S50000x256_S256x50000_1_0)))))

/-- The whole network. -/
def G (x0 : (⟨S2048x256, .f32⟩ : BufTy).Contents (Elt F)) (x1 : (⟨S50000x1024, .f32⟩ : BufTy).Contents (Elt F))
    (x2 : (⟨S1024x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F))
    (x8 : (⟨S800000, .f32⟩ : BufTy).Contents (Elt F)) (x9 x10 : (⟨S800000, .i32⟩ : BufTy).Contents (Elt F)) :
    (⟨S2048x50000, .f32⟩ : BufTy).Contents (Elt F) :=
  scoring x0 (layer2 (dense2 (layer1 (dense1 x1 x2 x3 x4) x5 x8 x9 x10) x6) x7 x8 x9 x10)

/-- The reference's result, operation for operation, is the network. -/
theorem ref_eq (x0 : (⟨S2048x256, .f32⟩ : BufTy).Contents (Elt F)) (x1 : (⟨S50000x1024, .f32⟩ : BufTy).Contents (Elt F))
    (x2 : (⟨S1024x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F))
    (x8 : (⟨S800000, .f32⟩ : BufTy).Contents (Elt F)) (x9 x10 : (⟨S800000, .i32⟩ : BufTy).Contents (Elt F)) :
    Cert.ReferenceIdeal.Read.val_main_v46 (F := F) x0 x1 x2 x3 x4 x5 x6 x7 x8 x9 x10 = G x0 x1 x2 x3 x4 x5 x6 x7 x8 x9 x10 := rfl

end Cert.Spec

end
-- ==== Proof.HostK.lean ====
/-
  The host stages between the dense stages, as the KERNEL's program spells them, are the reference's.

  The kernel's @main applies, between its TensorCore regions, the same host operations as the reference: the sparse
  aggregation A · h (gather the rows the edges' columns name, scale by the edges' values, add into the rows the edges'
  rows name), the bias row, and the ReLU.  Each program prints its own copy of the operations' dimension records; the
  copies hold the same axis lists, so the stages are the same functions.
-/
import proofs.«112449_j38104949850543_1_alg».proof.Proof.Gen.KernelIdeal
import proofs.«112449_j38104949850543_1_alg».proof.Proof.Spec

noncomputable section

namespace Cert.HostK

open Cert.KernelIdeal Cert.KernelIdeal.Gen Idealize.ShloMosaic

variable {F : FTy → Type} [FloatOps F]

/-- A bias vector added to every row: the [256] vector as a [1, 256] row, the row at every one of the 50000 rows. -/
def bias (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The [50000, 256] array of zeros. -/
def zeros : (⟨S50000x256, .f32⟩ : BufTy).Contents (Elt F) :=
  broadcastInDim S50000x256 ![] bcast_S_S50000x256 (constant S_ .f32 0x00000000#32)

/-- The edges' column indices as gather start indices: a negative index wrapped by the node count. -/
def cols (ec : (⟨S800000, .i32⟩ : BufTy).Contents (Elt F)) : (⟨S800000x1, .i32⟩ : BufTy).Contents (Elt F) :=
  broadcastInDim S800000x1 ![0] bcast_S800000_S800000x1_0
    (select (cmpi .slt ec (broadcastInDim S800000 ![] bcast_S_S800000 (constantI S_ 32 0#32)))
      (addi ec (broadcastInDim S800000 ![] bcast_S_S800000 (constantI S_ 32 50000#32))) ec)

/-- The sparse aggregation A · h of a dense [50000, 256] array h. -/
def spmm (ev : (⟨S800000, .f32⟩ : BufTy).Contents (Elt F)) (er ec : (⟨S800000, .i32⟩ : BufTy).Contents (Elt F))
    (h : (⟨S50000x256, .f32⟩ : BufTy).Contents (Elt F)) : (⟨S50000x256, .f32⟩ : BufTy).Contents (Elt F) :=
  Host.scatterAdd scatter_S50000x256_S800000x1_S800000x256_1_0_0_1 zeros
    (broadcastInDim S800000x1 ![0] bcast_S800000_S800000x1_0 er)
    (mulf (broadcastInDim S800000x256 ![0, 1] bcast_S800000x1_S800000x256_0_1 (broadcastInDim S800000x1 ![0] bcast_S800000_S800000x1_0 ev))
      (Host.gather gather_S50000x256_S800000x1_S800000x256_1_0_n_n_0_1_1256 h (cols ec)))

/-- The first graph layer after its dense stage: max(A · h + b₁, 0). -/
def layer1 (h : (⟨S50000x256, .f32⟩ : BufTy).Contents (Elt F)) (b1 : (⟨S256, .f32⟩ : BufTy).Contents (Elt F))
    (ev : (⟨S800000, .f32⟩ : BufTy).Contents (Elt F)) (er ec : (⟨S800000, .i32⟩ : BufTy).Contents (Elt F)) :
    (⟨S50000x256, .f32⟩ : BufTy).Contents (Elt F) :=
  maximumf (addf (spmm ev er ec h) (bias b1)) zeros

/-- The second graph layer after its dense stage: A · h + b₂. -/
def layer2 (h : (⟨S50000x256, .f32⟩ : BufTy).Contents (Elt F)) (b2 : (⟨S256, .f32⟩ : BufTy).Contents (Elt F))
    (ev : (⟨S800000, .f32⟩ : BufTy).Contents (Elt F)) (er ec : (⟨S800000, .i32⟩ : BufTy).Contents (Elt F)) :
    (⟨S50000x256, .f32⟩ : BufTy).Contents (Elt F) :=
  addf (spmm ev er ec h) (bias b2)

theorem layer1_eq (h : (⟨S50000x256, .f32⟩ : BufTy).Contents (Elt F)) (b1 : (⟨S256, .f32⟩ : BufTy).Contents (Elt F)) (ev : (⟨S800000, .f32⟩ : BufTy).Contents (Elt F))
    (er ec : (⟨S800000, .i32⟩ : BufTy).Contents (Elt F)) : layer1 h b1 ev er ec = Cert.Spec.layer1 h b1 ev er ec := rfl

theorem layer2_eq (h : (⟨S50000x256, .f32⟩ : BufTy).Contents (Elt F)) (b2 : (⟨S256, .f32⟩ : BufTy).Contents (Elt F)) (ev : (⟨S800000, .f32⟩ : BufTy).Contents (Elt F))
    (er ec : (⟨S800000, .i32⟩ : BufTy).Contents (Elt F)) : layer2 h b2 ev er ec = Cert.Spec.layer2 h b2 ev er ec := rfl

end Cert.HostK

end
-- ==== Proof.KVal.lean ====
/-
  The kernel's result as a function of the eleven argument arrays.

  The kernel computes the network's stages in its own arrangement: the three dense stages as whole-array functions (each
  what its TensorCore region leaves: the blockwise products, re-assembled), the two sparse aggregations by the same
  host operations as the reference, the node axis of f₂ zero-padded from 50000 to 50176 rows before the scoring stage and
  the padded columns of the scores dropped after it.
-/
import proofs.«112449_j38104949850543_1_alg».proof.Proof.Gen.KernelIdeal
import proofs.«112449_j38104949850543_1_alg».proof.Proof.Spec
import proofs.«112449_j38104949850543_1_alg».proof.Proof.Dense

noncomputable section

namespace Cert.KVal

open Cert.KernelIdeal Cert.KernelIdeal.Gen Idealize.ShloMosaic
open Cert.MatProd Cert.Dense

/-- The node embeddings padded with 176 rows of the padding value below the last node. -/
def padded (f : (⟨S50000x256, .f32⟩ : BufTy).Contents (Elt Ideal)) : (⟨S50176x256, .f32⟩ : BufTy).Contents (Elt Ideal) :=
  pad S50176x256 ![0, 0] ![176, 0] ![0, 0] f (sitofp (F := Ideal) .f32 (constantI S_ 32 0#32))
    pads_S50000x256_S50176x256_01760_000 h_S_

/-- The kernel's result: the scoring stage of x against the padded f₂, the padded columns dropped. -/
def kval (x0 : (⟨S2048x256, .f32⟩ : BufTy).Contents (Elt Ideal)) (x1 : (⟨S50000x1024, .f32⟩ : BufTy).Contents (Elt Ideal))
    (x2 : (⟨S1024x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S800000, .f32⟩ : BufTy).Contents (Elt Ideal)) (x9 x10 : (⟨S800000, .i32⟩ : BufTy).Contents (Elt Ideal)) :
    (⟨S2048x50000, .f32⟩ : BufTy).Contents (Elt Ideal) :=
  extractStridedSlice S2048x50000 ![0, 0]
    (score x0 (padded (Cert.Spec.layer2
      (matProd (Cert.Spec.layer1 (fused x1 x2 (shapeCast S1x256 x3 shapeCasts_S256_S1x256) x4) x5 x8 x9 x10) x6)
      x7 x8 x9 x10)))
    slices_S2048x50176_S2048x50000_0_0

end Cert.KVal

end
-- ==== Proof.Walk.lean ====
/-
  The idealized kernel's result as a function of its arguments: the buffer contents walked from the launch to the return.

  Between the launch and the return the TensorCore's buffers pass nine boundaries.  A host stretch changes the buffers
  its operations write, each to its operation's value of what was there; a dense stage on the TensorCore changes its
  result array to the stage's whole-array function of its operand arrays (the three region modules) and nothing else.
  The arguments are written by nothing.  Read backwards from the result — the slice of the scoring stage, of the
  arguments' x and the zero-padded f₂; f₂ the second sparse aggregation and bias of the second dense stage; that of the
  first layer's output and W₂; and so on — every boundary's contents become a term over the launch memory, and the
  result is the function `kval` of the eleven argument arrays.
-/
import proofs.«112449_j38104949850543_1_alg».proof.Proof.Region0
import proofs.«112449_j38104949850543_1_alg».proof.Proof.Region1
import proofs.«112449_j38104949850543_1_alg».proof.Proof.Region2
import proofs.«112449_j38104949850543_1_alg».proof.Proof.HostK
import proofs.«112449_j38104949850543_1_alg».proof.Proof.KVal
import Idealize.ShloMosaic.Lib.StableHlo.Run

noncomputable section

namespace Cert.KernelIdeal.Walk

open Cert.KernelIdeal Cert.KernelIdeal.Gen Idealize.ShloMosaic Idealize.ShloMosaic.TcCoe Idealize.SL.Sem
open Idealize.ShloMosaic.StableHlo
open Cert.MatProd Cert.Dense

/-! ## A called function's buffers

The operations of a function called from @main (the ReLU, the padding) read and write their buffers through the
buffer's own type, which IS the value's type: the transport along that equation is the identity. -/

theorem toBuf_v18 (h1 h2 h3) (v : (⟨S50000x256, .f32⟩ : BufTy).Contents (Elt Ideal)) :
    (TRef.of (sig := sig) (T := ⟨S50000x256, .f32⟩) main_v18 h1 h2 h3).toBuf v = v := rfl
theorem ofBuf_v17 (h1 h2 h3) (v : (⟨S50000x256, .f32⟩ : BufTy).Contents (Elt Ideal)) :
    (TRef.of (sig := sig) (T := ⟨S50000x256, .f32⟩) main_v17 h1 h2 h3).ofBuf v = v := rfl
theorem toBuf_call0_v0 (h1 h2 h3) (v : (⟨S50000x256, .f32⟩ : BufTy).Contents (Elt Ideal)) :
    (TRef.of (sig := sig) (T := ⟨S50000x256, .f32⟩) main_call0_v0 h1 h2 h3).toBuf v = v := rfl
theorem ofBuf_call0_v0 (h1 h2 h3) (v : (⟨S50000x256, .f32⟩ : BufTy).Contents (Elt Ideal)) :
    (TRef.of (sig := sig) (T := ⟨S50000x256, .f32⟩) main_call0_v0 h1 h2 h3).ofBuf v = v := rfl
theorem toBuf_call0_cst (h1 h2 h3) (v : (⟨S_, .f32⟩ : BufTy).Contents (Elt Ideal)) :
    (TRef.of (sig := sig) (T := ⟨S_, .f32⟩) main_call0_cst h1 h2 h3).toBuf v = v := rfl
theorem ofBuf_call0_cst (h1 h2 h3) (v : (⟨S_, .f32⟩ : BufTy).Contents (Elt Ideal)) :
    (TRef.of (sig := sig) (T := ⟨S_, .f32⟩) main_call0_cst h1 h2 h3).ofBuf v = v := rfl
theorem toBuf_v36 (h1 h2 h3) (v : (⟨S50176x256, .f32⟩ : BufTy).Contents (Elt Ideal)) :
    (TRef.of (sig := sig) (T := ⟨S50176x256, .f32⟩) main_v36 h1 h2 h3).toBuf v = v := rfl
theorem ofBuf_v35 (h1 h2 h3) (v : (⟨S50000x256, .f32⟩ : BufTy).Contents (Elt Ideal)) :
    (TRef.of (sig := sig) (T := ⟨S50000x256, .f32⟩) main_v35 h1 h2 h3).ofBuf v = v := rfl
theorem toBuf_call1_v0 (h1 h2 h3) (v : (⟨S_, .f32⟩ : BufTy).Contents (Elt Ideal)) :
    (TRef.of (sig := sig) (T := ⟨S_, .f32⟩) main_call1_v0 h1 h2 h3).toBuf v = v := rfl
theorem ofBuf_call1_v0 (h1 h2 h3) (v : (⟨S_, .f32⟩ : BufTy).Contents (Elt Ideal)) :
    (TRef.of (sig := sig) (T := ⟨S_, .f32⟩) main_call1_v0 h1 h2 h3).ofBuf v = v := rfl
theorem ofBuf_c_4 (h1 h2 h3) (v : (⟨S_, .i32⟩ : BufTy).Contents (Elt Ideal)) :
    (TRef.of (sig := sig) (T := ⟨S_, .i32⟩) main_c_4 h1 h2 h3).ofBuf v = v := rfl

/-! ## The host stretches, from any contents -/

section Stretches
variable (U : Valuation τ sig (Elt Ideal))

/-- The first bias as a one-row matrix. -/
theorem host0 : after (hostOps0 (F := Ideal)) U (Proc.devRef .tc main_v0)
    = shapeCast S1x256 (U (Proc.devRef .tc main_arg3)) shapeCasts_S256_S1x256 := by
  dsimp only [hostOps0]; after_results <;> rfl

/-- The first graph layer on the host: max(A · h₁ + b₁, 0) of the first dense stage's result. -/
theorem host1 : after (hostOps1_1 (F := Ideal)) (after (hostOps1 (F := Ideal)) U) (Proc.devRef .tc main_v18)
    = Cert.HostK.layer1 (U (Proc.devRef .tc main_v1)) (U (Proc.devRef .tc main_arg5)) (U (Proc.devRef .tc main_arg8))
        (U (Proc.devRef .tc main_arg9)) (U (Proc.devRef .tc main_arg10)) := by
  dsimp only [hostOps1_1, hostOps1]; after_results_simp
  rw [toBuf_v18, ofBuf_v17, ofBuf_call0_v0, toBuf_call0_v0, ofBuf_call0_cst, toBuf_call0_cst]
  unfold Cert.HostK.layer1 Cert.HostK.spmm Cert.HostK.bias Cert.HostK.zeros Cert.HostK.cols
  rfl

/-- The second graph layer on the host, padded: A · h₂ + b₂ of the second dense stage's result, then the padding rows. -/
theorem host2 : after (hostOps2_1 (F := Ideal)) (after (hostOps2 (F := Ideal)) U) (Proc.devRef .tc main_v36)
    = Cert.KVal.padded (Cert.HostK.layer2 (U (Proc.devRef .tc main_v19)) (U (Proc.devRef .tc main_arg7)) (U (Proc.devRef .tc main_arg8))
        (U (Proc.devRef .tc main_arg9)) (U (Proc.devRef .tc main_arg10))) := by
  dsimp only [hostOps2_1, hostOps2]; after_results_simp
  rw [toBuf_v36, ofBuf_v35, ofBuf_call1_v0, toBuf_call1_v0, ofBuf_c_4]
  unfold Cert.KVal.padded Cert.HostK.layer2 Cert.HostK.spmm Cert.HostK.bias Cert.HostK.zeros Cert.HostK.cols
  rfl

/-- The padded columns dropped. -/
theorem host3 : after (hostOps3 (F := Ideal)) U (Proc.devRef .tc main_v38)
    = extractStridedSlice S2048x50000 ![0, 0] (U (Proc.devRef .tc main_v37)) slices_S2048x50176_S2048x50000_0_0 := by
  dsimp only [hostOps3]; after_results <;> rfl

/-! No host operation writes an argument. -/

theorem kept0_0 : after (hostOps0 (F := Ideal)) U (Proc.devRef .tc main_arg0) = U (Proc.devRef .tc main_arg0) := by
  dsimp only [hostOps0]; after_results
theorem kept0_1 : after (hostOps0 (F := Ideal)) U (Proc.devRef .tc main_arg1) = U (Proc.devRef .tc main_arg1) := by
  dsimp only [hostOps0]; after_results
theorem kept0_2 : after (hostOps0 (F := Ideal)) U (Proc.devRef .tc main_arg2) = U (Proc.devRef .tc main_arg2) := by
  dsimp only [hostOps0]; after_results
theorem kept0_4 : after (hostOps0 (F := Ideal)) U (Proc.devRef .tc main_arg4) = U (Proc.devRef .tc main_arg4) := by
  dsimp only [hostOps0]; after_results
theorem kept0_5 : after (hostOps0 (F := Ideal)) U (Proc.devRef .tc main_arg5) = U (Proc.devRef .tc main_arg5) := by
  dsimp only [hostOps0]; after_results
theorem kept0_6 : after (hostOps0 (F := Ideal)) U (Proc.devRef .tc main_arg6) = U (Proc.devRef .tc main_arg6) := by
  dsimp only [hostOps0]; after_results
theorem kept0_7 : after (hostOps0 (F := Ideal)) U (Proc.devRef .tc main_arg7) = U (Proc.devRef .tc main_arg7) := by
  dsimp only [hostOps0]; after_results
theorem kept0_8 : after (hostOps0 (F := Ideal)) U (Proc.devRef .tc main_arg8) = U (Proc.devRef .tc main_arg8) := by
  dsimp only [hostOps0]; after_results
theorem kept0_9 : after (hostOps0 (F := Ideal)) U (Proc.devRef .tc main_arg9) = U (Proc.devRef .tc main_arg9) := by
  dsimp only [hostOps0]; after_results
theorem kept0_10 : after (hostOps0 (F := Ideal)) U (Proc.devRef .tc main_arg10) = U (Proc.devRef .tc main_arg10) := by
  dsimp only [hostOps0]; after_results

theorem kept1_0 : after (hostOps1_1 (F := Ideal)) (after (hostOps1 (F := Ideal)) U) (Proc.devRef .tc main_arg0) = U (Proc.devRef .tc main_arg0) := by
  dsimp only [hostOps1_1, hostOps1]; after_results
theorem kept1_6 : after (hostOps1_1 (F := Ideal)) (after (hostOps1 (F := Ideal)) U) (Proc.devRef .tc main_arg6) = U (Proc.devRef .tc main_arg6) := by
  dsimp only [hostOps1_1, hostOps1]; after_results
theorem kept1_7 : after (hostOps1_1 (F := Ideal)) (after (hostOps1 (F := Ideal)) U) (Proc.devRef .tc main_arg7) = U (Proc.devRef .tc main_arg7) := by
  dsimp only [hostOps1_1, hostOps1]; after_results
theorem kept1_8 : after (hostOps1_1 (F := Ideal)) (after (hostOps1 (F := Ideal)) U) (Proc.devRef .tc main_arg8) = U (Proc.devRef .tc main_arg8) := by
  dsimp only [hostOps1_1, hostOps1]; after_results
theorem kept1_9 : after (hostOps1_1 (F := Ideal)) (after (hostOps1 (F := Ideal)) U) (Proc.devRef .tc main_arg9) = U (Proc.devRef .tc main_arg9) := by
  dsimp only [hostOps1_1, hostOps1]; after_results
theorem kept1_10 : after (hostOps1_1 (F := Ideal)) (after (hostOps1 (F := Ideal)) U) (Proc.devRef .tc main_arg10) = U (Proc.devRef .tc main_arg10) := by
  dsimp only [hostOps1_1, hostOps1]; after_results

theorem kept2_0 : after (hostOps2_1 (F := Ideal)) (after (hostOps2 (F := Ideal)) U) (Proc.devRef .tc main_arg0) = U (Proc.devRef .tc main_arg0) := by
  dsimp only [hostOps2_1, hostOps2]; after_results

end Stretches

/-! ## The boundaries' contents over the launch memory -/

section Chain
variable (m : (ℓ : Loc nD τ sig) → Buf (Elt Ideal) ℓ) (ρ : Dev nD → PrngReg) (c : Dev nD)

/-! The arguments at the entry of the first dense stage … -/
theorem W1_arg0 : W1 m ρ c (Proc.devRef .tc main_arg0) = (m ((c : Thread nD τ).loc main_arg0)) := kept0_0 (W0 m ρ c)
theorem W1_arg1 : W1 m ρ c (Proc.devRef .tc main_arg1) = (m ((c : Thread nD τ).loc main_arg1)) := kept0_1 (W0 m ρ c)
theorem W1_arg2 : W1 m ρ c (Proc.devRef .tc main_arg2) = (m ((c : Thread nD τ).loc main_arg2)) := kept0_2 (W0 m ρ c)
theorem W1_arg4 : W1 m ρ c (Proc.devRef .tc main_arg4) = (m ((c : Thread nD τ).loc main_arg4)) := kept0_4 (W0 m ρ c)
theorem W1_arg5 : W1 m ρ c (Proc.devRef .tc main_arg5) = (m ((c : Thread nD τ).loc main_arg5)) := kept0_5 (W0 m ρ c)
theorem W1_arg6 : W1 m ρ c (Proc.devRef .tc main_arg6) = (m ((c : Thread nD τ).loc main_arg6)) := kept0_6 (W0 m ρ c)
theorem W1_arg7 : W1 m ρ c (Proc.devRef .tc main_arg7) = (m ((c : Thread nD τ).loc main_arg7)) := kept0_7 (W0 m ρ c)
theorem W1_arg8 : W1 m ρ c (Proc.devRef .tc main_arg8) = (m ((c : Thread nD τ).loc main_arg8)) := kept0_8 (W0 m ρ c)
theorem W1_arg9 : W1 m ρ c (Proc.devRef .tc main_arg9) = (m ((c : Thread nD τ).loc main_arg9)) := kept0_9 (W0 m ρ c)
theorem W1_arg10 : W1 m ρ c (Proc.devRef .tc main_arg10) = (m ((c : Thread nD τ).loc main_arg10)) := kept0_10 (W0 m ρ c)
/-! … after it (it writes only its result array) … -/
theorem W2_arg0 : W2 m ρ c (Proc.devRef .tc main_arg0) = (m ((c : Thread nD τ).loc main_arg0)) :=
  (W2_of_ne m ρ c main_arg0 (by decide)).trans (W1_arg0 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
/-! … at the entry of the second dense stage … -/
theorem W4_arg0 : W4 m ρ c (Proc.devRef .tc main_arg0) = (m ((c : Thread nD τ).loc main_arg0)) :=
  (kept1_0 (W2 m ρ c)).trans (W2_arg0 m ρ c)
theorem W4_arg6 : W4 m ρ c (Proc.devRef .tc main_arg6) = (m ((c : Thread nD τ).loc main_arg6)) :=
  (kept1_6 (W2 m ρ c)).trans (W2_arg6 m ρ c)
theorem W4_arg7 : W4 m ρ c (Proc.devRef .tc main_arg7) = (m ((c : Thread nD τ).loc main_arg7)) :=
  (kept1_7 (W2 m ρ c)).trans (W2_arg7 m ρ c)
theorem W4_arg8 : W4 m ρ c (Proc.devRef .tc main_arg8) = (m ((c : Thread nD τ).loc main_arg8)) :=
  (kept1_8 (W2 m ρ c)).trans (W2_arg8 m ρ c)
theorem W4_arg9 : W4 m ρ c (Proc.devRef .tc main_arg9) = (m ((c : Thread nD τ).loc main_arg9)) :=
  (kept1_9 (W2 m ρ c)).trans (W2_arg9 m ρ c)
theorem W4_arg10 : W4 m ρ c (Proc.devRef .tc main_arg10) = (m ((c : Thread nD τ).loc main_arg10)) :=
  (kept1_10 (W2 m ρ c)).trans (W2_arg10 m ρ c)
/-! … after it … -/
theorem W5_arg0 : W5 m ρ c (Proc.devRef .tc main_arg0) = (m ((c : Thread nD τ).loc main_arg0)) :=
  (W5_of_ne m ρ c main_arg0 (by decide)).trans (W4_arg0 m ρ c)
theorem W5_arg7 : W5 m ρ c (Proc.devRef .tc main_arg7) = (m ((c : Thread nD τ).loc main_arg7)) :=
  (W5_of_ne m ρ c main_arg7 (by decide)).trans (W4_arg7 m ρ c)
theorem W5_arg8 : W5 m ρ c (Proc.devRef .tc main_arg8) = (m ((c : Thread nD τ).loc main_arg8)) :=
  (W5_of_ne m ρ c main_arg8 (by decide)).trans (W4_arg8 m ρ c)
theorem W5_arg9 : W5 m ρ c (Proc.devRef .tc main_arg9) = (m ((c : Thread nD τ).loc main_arg9)) :=
  (W5_of_ne m ρ c main_arg9 (by decide)).trans (W4_arg9 m ρ c)
theorem W5_arg10 : W5 m ρ c (Proc.devRef .tc main_arg10) = (m ((c : Thread nD τ).loc main_arg10)) :=
  (W5_of_ne m ρ c main_arg10 (by decide)).trans (W4_arg10 m ρ c)
/-! … and at the entry of the scoring stage. -/
theorem W7_arg0 : W7 m ρ c (Proc.devRef .tc main_arg0) = (m ((c : Thread nD τ).loc main_arg0)) :=
  (kept2_0 (W5 m ρ c)).trans (W5_arg0 m ρ c)

/-- The bias row the first dense stage finds. -/
theorem W1_v0 : W1 m ρ c (Proc.devRef .tc main_v0) = shapeCast S1x256 (m ((c : Thread nD τ).loc main_arg3)) shapeCasts_S256_S1x256 :=
  host0 (W0 m ρ c)

/-- The first dense stage's result. -/
theorem W2_v1 : W2 m ρ c (Proc.devRef .tc main_v1)
    = fused (m ((c : Thread nD τ).loc main_arg1)) (m ((c : Thread nD τ).loc main_arg2)) (shapeCast S1x256 (m ((c : Thread nD τ).loc main_arg3)) shapeCasts_S256_S1x256) (m ((c : Thread nD τ).loc main_arg4)) := by
  refine (W2_arr m ρ c 4).trans ((Region0.final (V1 m ρ) c).trans ?_)
  show fused (W1 m ρ c (Proc.devRef .tc main_arg1)) (W1 m ρ c (Proc.devRef .tc main_arg2)) (W1 m ρ c (Proc.devRef .tc main_v0)) (W1 m ρ c (Proc.devRef .tc main_arg4)) = _
  rw [W1_arg1 m ρ c, W1_arg2 m ρ c, W1_v0 m ρ c, W1_arg4 m ρ c]

/-- The first graph layer's output. -/
theorem W4_v18 : W4 m ρ c (Proc.devRef .tc main_v18)
    = Cert.Spec.layer1 (fused (m ((c : Thread nD τ).loc main_arg1)) (m ((c : Thread nD τ).loc main_arg2)) (shapeCast S1x256 (m ((c : Thread nD τ).loc main_arg3)) shapeCasts_S256_S1x256) (m ((c : Thread nD τ).loc main_arg4)))
        (m ((c : Thread nD τ).loc main_arg5)) (m ((c : Thread nD τ).loc main_arg8)) (m ((c : Thread nD τ).loc main_arg9)) (m ((c : Thread nD τ).loc main_arg10)) := by
  refine (host1 (W2 m ρ c)).trans ?_
  rw [Cert.HostK.layer1_eq, W2_v1 m ρ c, W2_arg5 m ρ c, W2_arg8 m ρ c, W2_arg9 m ρ c, W2_arg10 m ρ c]

/-- The second dense stage's result. -/
theorem W5_v19 : W5 m ρ c (Proc.devRef .tc main_v19)
    = matProd (Cert.Spec.layer1 (fused (m ((c : Thread nD τ).loc main_arg1)) (m ((c : Thread nD τ).loc main_arg2)) (shapeCast S1x256 (m ((c : Thread nD τ).loc main_arg3)) shapeCasts_S256_S1x256) (m ((c : Thread nD τ).loc main_arg4)))
        (m ((c : Thread nD τ).loc main_arg5)) (m ((c : Thread nD τ).loc main_arg8)) (m ((c : Thread nD τ).loc main_arg9)) (m ((c : Thread nD τ).loc main_arg10))) (m ((c : Thread nD τ).loc main_arg6)) := by
  refine (W5_arr m ρ c 2).trans ((Region1.final (V4 m ρ) c).trans ?_)
  show matProd (W4 m ρ c (Proc.devRef .tc main_v18)) (W4 m ρ c (Proc.devRef .tc main_arg6)) = _
  rw [W4_v18 m ρ c, W4_arg6 m ρ c]

/-- The padded node embeddings the scoring stage finds. -/
theorem W7_v36 : W7 m ρ c (Proc.devRef .tc main_v36)
    = Cert.KVal.padded (Cert.Spec.layer2
        (matProd (Cert.Spec.layer1 (fused (m ((c : Thread nD τ).loc main_arg1)) (m ((c : Thread nD τ).loc main_arg2)) (shapeCast S1x256 (m ((c : Thread nD τ).loc main_arg3)) shapeCasts_S256_S1x256) (m ((c : Thread nD τ).loc main_arg4)))
          (m ((c : Thread nD τ).loc main_arg5)) (m ((c : Thread nD τ).loc main_arg8)) (m ((c : Thread nD τ).loc main_arg9)) (m ((c : Thread nD τ).loc main_arg10))) (m ((c : Thread nD τ).loc main_arg6)))
        (m ((c : Thread nD τ).loc main_arg7)) (m ((c : Thread nD τ).loc main_arg8)) (m ((c : Thread nD τ).loc main_arg9)) (m ((c : Thread nD τ).loc main_arg10))) := by
  refine (host2 (W5 m ρ c)).trans ?_
  rw [Cert.HostK.layer2_eq, W5_v19 m ρ c, W5_arg7 m ρ c, W5_arg8 m ρ c, W5_arg9 m ρ c, W5_arg10 m ρ c]

/-- The result buffer at the return is the kernel's function of the argument arrays. -/
theorem result_eq : W9 m ρ c (Proc.devRef .tc main_v38)
    = Cert.KVal.kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (host3 (W8 m ρ c)).trans ?_
  rw [show W8 m ρ c (Proc.devRef .tc main_v37) = score (W7 m ρ c (Proc.devRef .tc main_arg0)) (W7 m ρ c (Proc.devRef .tc main_v36)) from
    (W8_arr m ρ c 2).trans (Region2.final (V7 m ρ) c), W7_arg0 m ρ c, W7_v36 m ρ c]
  rfl

end Chain

end Cert.KernelIdeal.Walk

end
-- ==== Proof.Bridge.lean ====
/-
  The kernel's function of its arguments is the network: stage by stage.

  * Dense stage 1.  The reference's (X · W + b) · W₁, in host products, and the kernel's, in its own products over the
    one-row form of b, are the same entries: each product is the textbook sum, and the bias row read at any row is the
    bias vector's entry.
  * Dense stage 2.  f · W₂ is the same textbook sum on both sides.
  * Scoring.  The kernel's logistic is 1 / (1 + e⁻ˢ), the reference's expression; s = x · f₂ᵀ on both sides, the
    reference's transpose read back at the swapped index; and for a node column n < 50000 the padded f₂ read at row n is
    f₂'s row n, so dropping the padded columns leaves exactly the reference's scores.
  The sparse aggregations between the stages are the same function on both sides and are not opened.  Nothing is
  re-associated or distributed, so no finiteness of the inputs is used.
-/
import proofs.«112449_j38104949850543_1_alg».proof.Proof.KVal
import Idealize.ShloMosaic.Lib.IdealHost
import Idealize.ShloMosaic.Lib.KernelVsHost
import Idealize.ShloMosaic.Lib.Pipeline.Value

noncomputable section

namespace Cert.Bridge

open Cert.ReferenceIdeal Cert.ReferenceIdeal.Gen Idealize.ShloMosaic Idealize.ShloMosaic.ValueIdx
open Cert.MatProd Cert.MatProdT Cert.Dense

/-- The bias broadcast over the rows, read at (p, q), is the bias vector's entry q. -/
theorem bias_apply (b : (⟨S256, .f32⟩ : BufTy).Contents (Elt Ideal)) (p : Fin 50000) (q : Fin 256) : Cert.Spec.bias b (ix2 p q) = b (ix1 q) :=
  (broadcastInDim_apply (s := S1x256) (t := S50000x256) ![0, 1] bcast_S1x256_S50000x256_0_1 _ (ix2 p q) (ix2 (0 : Fin 1) q)
      (fun a => by match a with | ⟨0, _⟩ => rfl | ⟨1, _⟩ => rfl)).trans
    (broadcastInDim_apply (s := S256) (t := S1x256) ![1] bcast_S256_S1x256_1 b (ix2 (0 : Fin 1) q) (ix1 q)
      (fun a => by match a with | ⟨0, _⟩ => rfl))

/-- The bias as a one-row matrix, read at (0, q), is the bias vector's entry q. -/
theorem row_apply (b : (⟨S256, .f32⟩ : BufTy).Contents (Elt Ideal)) (h : S256.ShapeCasts S1x256) (q : Fin 256) :
    shapeCast S1x256 b h (ix2 (0 : Fin 1) q) = b (ix1 q) :=
  shapeCast_apply b h (ix2 (0 : Fin 1) q) (ix1 q) (by
    rw [Shape.rowMajor_val_one, Shape.rowMajor_val_two]
    show q.val = (0 : Fin 1).val * 256 + q.val
    simp)

/-- Dense stage 1: the kernel's arrangement is the reference's. -/
theorem fused_eq_dense1 (X : (⟨S50000x1024, .f32⟩ : BufTy).Contents (Elt Ideal)) (W : (⟨S1024x256, .f32⟩ : BufTy).Contents (Elt Ideal)) (b : (⟨S256, .f32⟩ : BufTy).Contents (Elt Ideal)) (W1 : (⟨S256x256, .f32⟩ : BufTy).Contents (Elt Ideal))
    (h : S256.ShapeCasts S1x256) :
    fused X W (shapeCast S1x256 b h) W1 = Cert.Spec.dense1 X W b W1 := by
  unfold Cert.Spec.dense1
  refine ((MatProd.dotGeneral_eq (m := 50000) (K := 256) (n := 256)
    dot_S50000x256_S256x256_S50000x256_1_0_0_1_n_n_wf none _ _ W1).trans ?_).symm
  unfold fused
  refine congrArg (fun l => matProd (m := 50000) (K := 256) (n := 256) l W1) (funext fun i => ?_)
  obtain ⟨p, q, rfl⟩ : ∃ (p : Fin 50000) (q : Fin 256), i = ix2 p q := ⟨i 0, i 1, eq_ix2 i⟩
  rw [addf_apply]
  refine congrArg₂ (· + ·) ?_ ?_
  · exact congrFun (MatProd.dotGeneral_eq (m := 50000) (K := 1024) (n := 256)
      dot_S50000x1024_S1024x256_S50000x256_1_0_0_1_n_n_wf none _ X W) (ix2 p q)
  · exact (bias_apply b p q).trans (row_apply b h q).symm

/-- Dense stage 2: the kernel's product is the reference's. -/
theorem matProd_eq_dense2 (f : (⟨S50000x256, .f32⟩ : BufTy).Contents (Elt Ideal)) (W2 : (⟨S256x256, .f32⟩ : BufTy).Contents (Elt Ideal)) : matProd f W2 = Cert.Spec.dense2 f W2 :=
  (MatProd.dotGeneral_eq (m := 50000) (K := 256) (n := 256) dot_S50000x256_S256x256_S50000x256_1_0_0_1_n_n_wf none _ f W2).symm

/-- The reference's score at (p, q): the logistic of row p of x against row q of f. -/
theorem scoring_apply (x : (⟨S2048x256, .f32⟩ : BufTy).Contents (Elt Ideal)) (f : (⟨S50000x256, .f32⟩ : BufTy).Contents (Elt Ideal)) (p : Fin 2048) (q : Fin 50000) :
    Cert.Spec.scoring x f (ix2 p q) = Ideal.logistic (∑ k : Fin 256, x (ix2 p k) * f (ix2 q k)) := by
  have e : Host.dotGeneral (F := Ideal) (φ₁ := .f32) (φ₂ := .f32) dot_S2048x256_S256x50000_S2048x50000_1_0_0_1_n_n none x
        (transpose S256x50000 [1, 0] f transposes_S50000x256_S256x50000_1_0) (ix2 p q)
      = ∑ k : Fin 256, x (ix2 p k) * f (ix2 q k) := by
    refine (congrFun (MatProd.dotGeneral_eq (m := 2048) (K := 256) (n := 50000)
      dot_S2048x256_S256x50000_S2048x50000_1_0_0_1_n_n_wf none _ x _) (ix2 p q)).trans ?_
    rw [matProd_apply]
    refine Finset.sum_congr rfl fun k _ => ?_
    exact congrArg (x (ix2 p k) * ·) (transpose_apply [1, 0] f transposes_S50000x256_S256x50000_1_0 (ix2 k q) (ix2 q k)
      (fun b => by match b with | ⟨0, _⟩ => rfl | ⟨1, _⟩ => rfl))
  show Ideal.div (Ideal.ofBits .f32 0x3F800000#32) (Ideal.ofBits .f32 0x3F800000#32
    + Ideal.exp (-(Host.dotGeneral (F := Ideal) (φ₁ := .f32) (φ₂ := .f32) dot_S2048x256_S256x50000_S2048x50000_1_0_0_1_n_n none x
        (transpose S256x50000 [1, 0] f transposes_S50000x256_S256x50000_1_0) (ix2 p q)))) = _
  rw [e, Ideal.ofBits_one_f32]
  rfl

/-- The padded embeddings read at a node's row are the embeddings' row. -/
theorem padded_apply (f : (⟨S50000x256, .f32⟩ : BufTy).Contents (Elt Ideal)) (n : Fin 50000) (k : Fin 256) (hn : n.val < 50176) :
    Cert.KVal.padded f (ix2 (⟨n.val, hn⟩ : Fin 50176) k) = f (ix2 n k) := by
  unfold Cert.KVal.padded
  exact pad_apply_of_inside ![0, 0] ![176, 0] ![0, 0] f _ _ _ (ix2 (⟨n.val, hn⟩ : Fin 50176) k) (ix2 n k) (fun a => by
    match a with
    | ⟨0, _⟩ => show n.val = 0 + n.val * (0 + 1); omega
    | ⟨1, _⟩ => show k.val = 0 + k.val * (0 + 1); omega)

/-- Scoring: the kernel's scores on the padded embeddings, the padded columns dropped, are the reference's scores. -/
theorem slice_score (x : (⟨S2048x256, .f32⟩ : BufTy).Contents (Elt Ideal)) (f : (⟨S50000x256, .f32⟩ : BufTy).Contents (Elt Ideal)) (h : Cert.KernelIdeal.S2048x50176.Slices ![0, 0] Cert.KernelIdeal.S2048x50000) :
    extractStridedSlice Cert.KernelIdeal.S2048x50000 ![0, 0] (score x (Cert.KVal.padded f)) h = Cert.Spec.scoring x f := by
  funext i
  obtain ⟨p, q, rfl⟩ : ∃ (p : Fin 2048) (q : Fin 50000), i = ix2 p q := ⟨i 0, i 1, eq_ix2 i⟩
  have hq : q.val < 50176 := by have := q.isLt; omega
  rw [scoring_apply]
  refine (extractStridedSlice_apply ![0, 0] _ h (ix2 p q) (ix2 p (⟨q.val, hq⟩ : Fin 50176)) (fun a => by
    match a with
    | ⟨0, _⟩ => show p.val = 0 + p.val; omega
    | ⟨1, _⟩ => show q.val = 0 + q.val; omega)).trans ?_
  show Ideal.logistic (∑ k : Fin 256, x (ix2 p k) * Cert.KVal.padded f (ix2 (⟨q.val, hq⟩ : Fin 50176) k)) = _
  refine congrArg Ideal.logistic (Finset.sum_congr rfl fun k _ => ?_)
  rw [padded_apply f q k hq]

/-- The kernel's function of its arguments is the network. -/
theorem kval_eq (x0 : (⟨S2048x256, .f32⟩ : BufTy).Contents (Elt Ideal)) (x1 : (⟨S50000x1024, .f32⟩ : BufTy).Contents (Elt Ideal)) (x2 : (⟨S1024x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S800000, .f32⟩ : BufTy).Contents (Elt Ideal))
    (x9 x10 : (⟨S800000, .i32⟩ : BufTy).Contents (Elt Ideal)) :
    Cert.KVal.kval x0 x1 x2 x3 x4 x5 x6 x7 x8 x9 x10 = Cert.Spec.G x0 x1 x2 x3 x4 x5 x6 x7 x8 x9 x10 := by
  unfold Cert.KVal.kval Cert.Spec.G
  rw [fused_eq_dense1 x1 x2 x3 x4 Cert.KernelIdeal.Gen.shapeCasts_S256_S1x256, matProd_eq_dense2]
  exact slice_score _ _ _

end Cert.Bridge

end
-- ==== Proof.lean ====
/-
  A two-layer graph network scored against a batch of queries: the kernel program and the reference compute the same
  function of their eleven arguments on the extended reals.

      h₁ = (X · W + b) · W₁        f₁ = max(A · h₁ + b₁, 0)        h₂ = f₁ · W₂        f₂ = A · h₂ + b₂
      out = 1 / (1 + exp(-(x · f₂ᵀ)))

  A is the sparse adjacency given by 800000 (value, row, column) edges; A · h is a gather of h's rows by the edges'
  columns, a scaling by the edges' values and a scatter-add into the edges' rows.

  The reference computes every stage on the host.  The kernel program computes the three dense stages on the TensorCore,
  in blocks of rows (1000 rows of X at a time for h₁; 5000 rows of f₁ at a time for h₂; 896 rows of f₂ — columns of the
  scores — at a time for out, the node axis zero-padded from 50000 to 50176 and the padded columns dropped), and the two
  sparse aggregations on the host with the reference's own operations.  On the extended reals:
    * a change of float format is the identity, and a product accumulated into zero is the textbook sum Σ_k l(p,k)·r(k,q),
      as the host's product is: an entry of a dense stage needs one row of the left operand, so a stage on a block of
      rows is the block of the stage on the whole array, and the blocks tile the result;
    * the kernel's logistic is 1 / (1 + e⁻ˢ), the reference's expression, and a padded row of f₂ only feeds a dropped
      column;
    * the sparse aggregations are one function applied to equal arguments, never opened.
  No sum is re-ordered or distributed, so the inputs' finiteness is not used by the value claim.  The ideal pass
  rewrote nothing, so the kernel's idealization is its own text read on the extended reals.
-/
import proofs.«112449_j38104949850543_1_alg».proof.Defs
import proofs.«112449_j38104949850543_1_alg».proof.Proof.Gen.Kernel
import proofs.«112449_j38104949850543_1_alg».proof.Proof.Gen.Kernel.Skeleton
import proofs.«112449_j38104949850543_1_alg».proof.Proof.Gen.Kernel.Launch
import proofs.«112449_j38104949850543_1_alg».proof.Proof.Gen.Kernel.Points
import proofs.«112449_j38104949850543_1_alg».proof.Proof.Gen.Kernel.Frame
import proofs.«112449_j38104949850543_1_alg».proof.Proof.Gen.KernelIdeal
import proofs.«112449_j38104949850543_1_alg».proof.Proof.Gen.KernelIdeal.Skeleton
import proofs.«112449_j38104949850543_1_alg».proof.Proof.Gen.KernelIdeal.Launch
import proofs.«112449_j38104949850543_1_alg».proof.Proof.Gen.KernelIdeal.Points
import proofs.«112449_j38104949850543_1_alg».proof.Proof.Gen.KernelIdeal.Frame
import proofs.«112449_j38104949850543_1_alg».proof.Proof.Gen.ReferenceIdeal
import proofs.«112449_j38104949850543_1_alg».proof.Proof.Gen.ReferenceIdeal.Run
import proofs.«112449_j38104949850543_1_alg».proof.Proof.Gen.ReferenceIdeal.Read
import proofs.«112449_j38104949850543_1_alg».proof.Proof.Gen.Pre_finite_inputs
import proofs.«112449_j38104949850543_1_alg».proof.Proof.RunNamed
import proofs.«112449_j38104949850543_1_alg».proof.Proof.Walk
import proofs.«112449_j38104949850543_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs, and its arguments end as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs, and its arguments end as launched: its run, the result's equation dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans ((Cert.KernelIdeal.Walk.result_eq m ρ c).trans
        (Cert.Bridge.kval_eq _ _ _ _ _ _ _ _ _ _ _)), (h c).2⟩)
      (Cert.KernelIdeal.RunNamed.run m ρ)
  · refine (θ_run Cert.ReferenceIdeal.defs _ _).mono (fun _ h c => ⟨(h c).1.trans ?_, (h c).2⟩)
      (Cert.ReferenceIdeal.Value.run (F := Ideal) m' ρ')
    refine ((Cert.ReferenceIdeal.Read.val_main_v46_eq _ _ _ _ _ _ _ _ _ _ _).trans
      (Cert.Spec.ref_eq _ _ _ _ _ _ _ _ _ _ _)).trans ?_
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
